-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 82
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S100000x128, .f32⟩
  | .hbm, ⟨64, _⟩ => ⟨S100000x64, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x64, .f32⟩
  | .hbm, ⟨74, _⟩ => ⟨S1700000x1, .f32⟩
  | .hbm, ⟨75, _⟩ => ⟨S1700000x64, .f32⟩
  | .hbm, ⟨76, _⟩ => ⟨S1700000x64, .f32⟩
  | .hbm, ⟨77, _⟩ => ⟨S_, .f32⟩
  | .hbm, ⟨78, _⟩ => ⟨S100000x64, .f32⟩
  | .hbm, ⟨79, _⟩ => ⟨S1700000x1, .i32⟩
  | .hbm, ⟨80, _⟩ => ⟨S100000x64, .f32⟩
  | .hbm, ⟨81, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000, .i32⟩
  | .hbm, ⟨70, _⟩ => ⟨S1700000, .i32⟩
  | .hbm, ⟨71, _⟩ => ⟨S1700000, .i32⟩
  | .hbm, ⟨72, _⟩ => ⟨S_, .f32⟩
  | .hbm, ⟨73, _⟩ => ⟨S1700000, .f32⟩
  | .hbm, ⟨74, _⟩ => ⟨S_, .f32⟩
  | .hbm, ⟨75, _⟩ => ⟨S100000, .f32⟩
  | .hbm, ⟨76, _⟩ => ⟨S1700000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .i1⟩
  | .hbm, ⟨81, _⟩ => ⟨S100000, .f32⟩
  | .hbm, ⟨82, _⟩ => ⟨S_, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000, .f32⟩
  | .hbm, ⟨104, _⟩ => ⟨S1700000, .f32⟩
  | .hbm, ⟨105, _⟩ => ⟨S100000x64, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x64, .f32⟩
  | .hbm, ⟨115, _⟩ => ⟨S1700000x1, .f32⟩
  | .hbm, ⟨116, _⟩ => ⟨S1700000x64, .f32⟩
  | .hbm, ⟨117, _⟩ => ⟨S1700000x64, .f32⟩
  | .hbm, ⟨118, _⟩ => ⟨S_, .f32⟩
  | .hbm, ⟨119, _⟩ => ⟨S100000x64, .f32⟩
  | .hbm, ⟨120, _⟩ => ⟨S1700000x1, .i32⟩
  | .hbm, ⟨121, _⟩ => ⟨S100000x64, .f32⟩
  | .hbm, ⟨122, _⟩ => ⟨S1x64, .f32⟩
  | .hbm, ⟨123, _⟩ => ⟨S100000x64, .f32⟩
  | .hbm, ⟨124, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibDenseTile.lean ====
import Idealize.ShloMosaic.Lib.ValueLayout
import Idealize.ShloMosaic.PureOps.Ideal.Laws
import proofs.«126822_j85882166051006_1_alg».proof.Proof.LibPlainDot

/-!
# A dense layer on a tile of rows

A tile `[M, K]` of rows times a weight matrix `[K, N]` into a zero accumulator, plus a bias vector `[N]` stood up as
one row `[1, N]` and repeated down the `M` rows, read at `(p, q)` over the extended reals: the plain sum
`∑ k < K, l (p, k) · w (k, q)` plus `b q`. Changes of float format on the way into the product are the identity there,
so the operands may carry any formats. Any `M`, `K`, `N`.
-/

noncomputable section

namespace Cert.LibDenseTile

open Idealize.ShloMosaic Idealize.ShloMosaic.ValueIdx
open scoped BigOperators

/-- A bias vector `[N]` stood up as a row and repeated down `M` rows reads, at `(p, q)`, its entry `q`. -/
theorem biasRows_apply {α : Type} {M N : Nat} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) :=
  (broadcastTo_1b_ab_apply _ hb p q).trans (shapeCast_a_1a_apply b hc (0 : Fin 1) q)

/-- The dense layer at `(p, q)`: the row's product with column `q`, plus the bias there. -/
theorem dense_apply {M K N : Nat} {φ₁ φ₂ : FTy} (d : DotDims ⟨2, ![M, K]⟩ ⟨2, ![K, N]⟩ ⟨2, ![M, N]⟩)
    (hd : LibPlainDot.Plain d) (prec : Option ContractPrecision)
    (l : FVec Ideal ⟨2, ![M, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (matmul d prec l w (constant ⟨2, ![M, N]⟩ .f32 0x00000000#32))
        (broadcastTo ⟨2, ![M, N]⟩ (shapeCast ⟨2, ![1, N]⟩ b hc) hb) (ix2 p q)
      = (∑ k : Fin K, l (ix2 p k) * w (ix2 k q)) + b (ix1 q) := by
  rw [addf_apply, biasRows_apply b hc hb p q]
  exact congrArg (· + b (ix1 q)) (LibPlainDot.matmul_zero_apply d hd prec l w p q)

end Cert.LibDenseTile

end
-- ==== Proof.LibRowLayers.lean ====
import Idealize.ShloMosaic.Lib.ValueIdx
import Idealize.ShloMosaic.Lib.ValueLayout
import Idealize.ShloMosaic.Lib.Pipeline.Value
import Idealize.ShloMosaic.PureOps.Ideal.Laws
import proofs.«126822_j85882166051006_1_alg».proof.Proof.LibPlainDot
import proofs.«126822_j85882166051006_1_alg».proof.Proof.LibDenseTile

/-!
# The dense stages of a two-layer graph convolution, as whole-array functions

Over the extended reals a graph-convolution layer is: multiply every node's feature row by a weight matrix, send each
row along the edges scaled by the edge weight and add what arrives at each node, add a bias row, and (in the first
layer) keep the positive part. The edge step is the same on both sides of the comparison and is never opened here.
This file names the dense steps index by index, for any number of rows:

* `rowsTimes x w`: entry `(p, q)` is `∑ k, x (p, k) · w (k, q)`;
* `addRow y b`: entry `(p, q)` is `y (p, q) + b q`;
* `reluRow y b`: entry `(p, q)` is `max (y (p, q) + b q) 0`.

A product computed tile of rows by tile of rows and one computed on the whole array have the same entries, because an
entry only depends on its own row; likewise for the two bias steps. The matrix unit's product into a zero accumulator
and the host's `dot_general` are both `rowsTimes`.
-/

noncomputable section

namespace Cert.Layers

open Idealize.ShloMosaic Idealize.ShloMosaic.ValueIdx
open scoped BigOperators

/-- Offsets that are all zero, however they are spelt. -/
theorem zeros2 : (![0, 0] : Fin 2 → Nat) = fun _ => 0 := funext fun a => by fin_cases a <;> rfl
theorem zeros1 : (![0] : Fin 1 → Nat) = fun _ => 0 := funext fun a => by fin_cases a; rfl

variable {M K N : Nat}

/-- Every row of `x` times the matrix `w`. -/
def rowsTimes (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply (x : (⟨2, ![M, K]⟩ : Shape).Idx → EReal) (w : (⟨2, ![K, N]⟩ : Shape).Idx → EReal)
    (p : Fin M) (q : Fin N) : rowsTimes x w (ix2 p q) = ∑ k : Fin K, x (ix2 p k) * w (ix2 k q) := rfl

/-- The bias row `b` added to every row of `y`. -/
def addRow (y : (⟨2, ![M, N]⟩ : Shape).Idx → EReal) (b : (⟨1, ![N]⟩ : Shape).Idx → EReal) :
    (⟨2, ![M, N]⟩ : Shape).Idx → EReal :=
  fun i => y i + b (ix1 (i 1))

theorem addRow_apply (y : (⟨2, ![M, N]⟩ : Shape).Idx → EReal) (b : (⟨1, ![N]⟩ : Shape).Idx → EReal)
    (p : Fin M) (q : Fin N) : addRow y b (ix2 p q) = y (ix2 p q) + b (ix1 q) := rfl

/-- The positive part of `y` plus the bias row. -/
def reluRow (y : (⟨2, ![M, N]⟩ : Shape).Idx → EReal) (b : (⟨1, ![N]⟩ : Shape).Idx → EReal) :
    (⟨2, ![M, N]⟩ : Shape).Idx → EReal :=
  fun i => max (y i + b (ix1 (i 1))) 0

theorem reluRow_apply (y : (⟨2, ![M, N]⟩ : Shape).Idx → EReal) (b : (⟨1, ![N]⟩ : Shape).Idx → EReal)
    (p : Fin M) (q : Fin N) : reluRow y b (ix2 p q) = max (y (ix2 p q) + b (ix1 q)) 0 := rfl

/-- The matrix unit's product into a zero accumulator is `rowsTimes`, whatever float formats its operands carry. -/
theorem matmul_zero_eq {φ₁ φ₂ : FTy} (d : DotDims ⟨2, ![M, K]⟩ ⟨2, ![K, N]⟩ ⟨2, ![M, N]⟩) (h : LibPlainDot.Plain d)
    (prec : Option ContractPrecision) (l : FVec Ideal ⟨2, ![M, K]⟩ φ₁) (r : FVec Ideal ⟨2, ![K, N]⟩ φ₂) :
    FloatOps.matmul d prec l r (constant ⟨2, ![M, N]⟩ .f32 0x00000000#32) = rowsTimes l r := by
  funext i
  obtain ⟨p, q, rfl⟩ : ∃ (p : Fin M) (q : Fin N), i = ix2 p q := ⟨i 0, i 1, eq_ix2 i⟩
  exact LibPlainDot.matmul_zero_apply d h prec l r p q

/-- The host's `dot_general` is `rowsTimes`. -/
theorem dotGeneral_eq {φ₁ φ₂ : FTy} (d : DotDims ⟨2, ![M, K]⟩ ⟨2, ![K, N]⟩ ⟨2, ![M, N]⟩) (h : LibPlainDot.Plain d)
    (prec : Option ContractPrecision) (sched : HostSchedule) (l : FVec Ideal ⟨2, ![M, K]⟩ φ₁) (r : FVec Ideal ⟨2, ![K, N]⟩ φ₂) :
    FloatOps.dotGeneral d prec sched l r = rowsTimes l r := by
  funext i
  obtain ⟨p, q, rfl⟩ : ∃ (p : Fin M) (q : Fin N), i = ix2 p q := ⟨i 0, i 1, eq_ix2 i⟩
  exact LibPlainDot.dotGeneral_apply d h prec sched l r p q

/-- A tile's rows plus a bias vector stood up as a row and repeated down the tile: entry `(p, q)` gets `b q`. -/
theorem tile_addBias_apply (y : FVec Ideal ⟨2, ![M, N]⟩ .f32) (b : FVec Ideal ⟨1, ![N]⟩ .f32)
    (hs : (⟨2, ![M, N]⟩ : Shape).ShapeCasts ⟨2, ![M, N]⟩)
    (hc : (⟨1, ![N]⟩ : Shape).ShapeCasts ⟨2, ![1, N]⟩) (hb : (⟨2, ![1, N]⟩ : Shape).Broadcasts ⟨2, ![M, N]⟩)
    (p : Fin M) (q : Fin N) :
    addf (shapeCast ⟨2, ![M, N]⟩ y hs) (broadcastTo ⟨2, ![M, N]⟩ (shapeCast ⟨2, ![1, N]⟩ b hc) hb) (ix2 p q)
      = y (ix2 p q) + b (ix1 q) := by
  rw [addf_apply, LibDenseTile.biasRows_apply b hc hb p q, shapeCast_self]

/-- A bias vector made a one-row array and that row repeated down `M` rows, both by `broadcast_in_dim`: entry `(p, q)`
    is the bias entry `q`. -/
theorem rows_of_vector_apply {α : Type} (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (p : Fin M) (q : Fin N) :
    broadcastInDim ⟨2, ![M, N]⟩ ![0, 1] h2 (broadcastInDim ⟨2, ![1, N]⟩ ![1] h1 b) (ix2 p q) = b (ix1 q) := by
  have hq : q.val < N := q.isLt
  rw [broadcastInDim_apply ![0, 1] h2 _ (ix2 p q) (ix2 (0 : Fin 1) q) (fun a => by
        match a with
        | ⟨0, _⟩ => show (0 : Nat) = if (1 : Nat) = 1 then 0 else p.val; rw [if_pos rfl]
        | ⟨1, _⟩ => show q.val = if N = 1 then 0 else q.val; by_cases h : N = 1 <;> simp only [h, if_true, if_false, ite_true, ite_false] <;> omega),
    broadcastInDim_apply ![1] h1 b (ix2 (0 : Fin 1) q) (ix1 q) (fun a => by
        match a with
        | ⟨0, _⟩ => show q.val = if N = 1 then 0 else q.val; by_cases h : N = 1 <;> simp only [h, if_true, if_false, ite_true, ite_false] <;> omega)]

/-- Adding that array of repeated bias rows is `addRow`. -/
theorem addf_rows_of_vector (y : FVec Ideal ⟨2, ![M, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf y (broadcastInDim ⟨2, ![M, N]⟩ ![0, 1] h2 (broadcastInDim ⟨2, ![1, N]⟩ ![1] h1 b)) = addRow y b := by
  funext i
  obtain ⟨p, q, rfl⟩ : ∃ (p : Fin M) (q : Fin N), i = ix2 p q := ⟨i 0, i 1, eq_ix2 i⟩
  rw [addf_apply, rows_of_vector_apply b h1 h2 p q]
  rfl

/-- Its positive part against an array of zeros is `reluRow`. -/
theorem maximumf_addf_rows_of_vector (y : FVec Ideal ⟨2, ![M, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (z : FVec Ideal ⟨2, ![M, N]⟩ .f32) (hz : ∀ i, z i = 0) :
    maximumf (addf y (broadcastInDim ⟨2, ![M, N]⟩ ![0, 1] h2 (broadcastInDim ⟨2, ![1, N]⟩ ![1] h1 b))) z = reluRow y b := by
  rw [addf_rows_of_vector y b h1 h2]
  funext i
  rw [maximumf_apply, hz i]
  rfl

end Cert.Layers

end
-- ==== Proof.Convolution.lean ====
import proofs.«126822_j85882166051006_1_alg».proof.Proof.ReferenceRun
import proofs.«126822_j85882166051006_1_alg».proof.Proof.LibRowLayers

/-!
# The two-layer graph convolution as one function of the six arguments

The edge list `e` is a 2 × 1600000 array of node numbers: row 0 the sources, row 1 the targets. With a self loop
appended for each of the 100000 nodes (`srcs`, `dsts`), a node's degree is the number of edges that end at it, its
`invSqrtDeg` is `1/√degree` where the degree is positive and zero elsewhere, and an edge's weight is the product of
that number at its two ends (node numbers below zero counted from the end: `wrap`). One layer's edge step `spread`
takes every edge's source row, scales it by the edge's weight and adds it into the edge's target row, from an array of
zeros. The whole network is

  `addRow (spread64 (rowsTimes (reluRow (spread128 (rowsTimes x W1)) b1) W2)) b2`.

The reference program's result term is this function of its arguments: its second layer recomputes the edge data from
the same edge list by the same operations, so the two copies are one term.
-/

set_option maxRecDepth 16384

noncomputable section

namespace Cert.Gcn

open Cert.ReferenceIdeal Cert.ReferenceIdeal.Gen Cert.Layers
open Idealize.ShloMosaic Idealize.ShloMosaic.TcCoe Idealize.SL.Sem Idealize.ShloMosaic.StableHlo
open Idealize.ShloMosaic.ValueIdx

/-- An edge list: 2 × 1600000 node numbers. -/
abbrev Edges : Type := (⟨S2x1600000, .i32⟩ : BufTy).Contents (Elt Ideal)
/-- One node number per edge, self loops included. -/
abbrev Ends : Type := (⟨S1700000, .i32⟩ : BufTy).Contents (Elt Ideal)

/-- The edges' sources, then every node once (the self loops). -/
def srcs (e : Edges) : Ends :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edges' targets, then every node once. -/
def dsts (e : Edges) : Ends :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node number below zero counts from the end. -/
def wrap (s : Ends) : Ends :=
  select (cmpi .slt s (broadcastInDim S1700000 ![] bcast_S_S1700000 (constantI S_ 32 0#32))) (addi s (broadcastInDim S1700000 ![] bcast_S_S1700000 (constantI S_ 32 100000#32))) s

/-- One entry per edge stood up as a column of index words. -/
def col (s : Ends) : (⟨S1700000x1, .i32⟩ : BufTy).Contents (Elt Ideal) :=
  broadcastInDim S1700000x1 ![0] bcast_S1700000_S1700000x1_0 s

/-- How many edges end at each node. -/
def degree (e : Edges) : FVec Ideal S100000 .f32 :=
  Host.scatterAdd scatter_S100000_S1700000x1_S1700000_n_0_0_1 (broadcastInDim S100000 ![] bcast_S_S100000 (constant S_ .f32 0x00000000#32)) (col (dsts e)) (broadcastInDim S1700000 ![] bcast_S_S1700000 (constant S_ .f32 0x3F800000#32))

/-- `1/√degree` where the degree is positive, zero elsewhere. -/
def invSqrtDeg (e : Edges) : FVec Ideal S100000 .f32 :=
  select (cmpf (F := Ideal) .ogt (degree e) (broadcastInDim S100000 ![] bcast_S_S100000 (constant S_ .f32 0x00000000#32))) (Host.rsqrt (degree e)) (broadcastInDim S100000 ![] bcast_S_S100000 (id (constant S_ .f32 0x00000000#32)))

/-- An edge's weight: `invSqrtDeg` at its source times `invSqrtDeg` at its target. -/
def weights (e : Edges) : FVec Ideal S1700000 .f32 :=
  mulf (Host.gather gather_S100000_S1700000x1_S1700000_n_0_n_n_0_1_1 (invSqrtDeg e) (col (wrap (srcs e)))) (Host.gather gather_S100000_S1700000x1_S1700000_n_0_n_n_0_1_1 (invSqrtDeg e) (col (wrap (dsts e))))

/-- The first layer's edge step on 128-entry rows. -/
def spread128 (e : Edges) (h : FVec Ideal S100000x128 .f32) : FVec Ideal S100000x128 .f32 :=
  Host.scatterAdd scatter_S100000x128_S1700000x1_S1700000x128_1_0_0_1 (broadcastInDim S100000x128 ![] bcast_S_S100000x128 (constant S_ .f32 0x00000000#32)) (col (dsts e)) (mulf (Host.gather gather_S100000x128_S1700000x1_S1700000x128_1_0_n_n_0_1_1128 h (col (wrap (srcs e)))) (broadcastInDim S1700000x128 ![0, 1] bcast_S1700000x1_S1700000x128_0_1 (broadcastInDim S1700000x1 ![0] bcast_S1700000_S1700000x1_0 (weights e))))

/-- The second layer's edge step on 64-entry rows. -/
def spread64 (e : Edges) (h : FVec Ideal S100000x64 .f32) : FVec Ideal S100000x64 .f32 :=
  Host.scatterAdd scatter_S100000x64_S1700000x1_S1700000x64_1_0_0_1 (broadcastInDim S100000x64 ![] bcast_S_S100000x64 (constant S_ .f32 0x00000000#32)) (col (dsts e)) (mulf (Host.gather gather_S100000x64_S1700000x1_S1700000x64_1_0_n_n_0_1_164 h (col (wrap (srcs e)))) (broadcastInDim S1700000x64 ![0, 1] bcast_S1700000x1_S1700000x64_0_1 (broadcastInDim S1700000x1 ![0] bcast_S1700000_S1700000x1_0 (weights e))))

/-- The network: product, edge step, bias and positive part; product, edge step, bias. -/
def gcn (x : FVec Ideal S100000x256 .f32) (e : Edges) (w1 : FVec Ideal S256x128 .f32) (b1 : FVec Ideal S128 .f32)
    (w2 : FVec Ideal S128x64 .f32) (b2 : FVec Ideal S64 .f32) : FVec Ideal S100000x64 .f32 :=
  addRow (M := 100000) (N := 64)
    (spread64 e (rowsTimes (M := 100000) (K := 128) (N := 64)
      (reluRow (M := 100000) (N := 128) (spread128 e (rowsTimes (M := 100000) (K := 256) (N := 128) x w1)) b1) w2)) b2

/-- The network as the reference spells its dense steps: `dot_general`, a bias vector made rows by two
    `broadcast_in_dim`, a maximum against an array of zeros. -/
def gcnHost (x : FVec Ideal S100000x256 .f32) (e : Edges) (w1 : FVec Ideal S256x128 .f32) (b1 : FVec Ideal S128 .f32)
    (w2 : FVec Ideal S128x64 .f32) (b2 : FVec Ideal S64 .f32) : FVec Ideal S100000x64 .f32 :=
  addf (spread64 e (Host.dotGeneral dot_S100000x128_S128x64_S100000x64_1_0_0_1_n_n none (maximumf (addf (spread128 e (Host.dotGeneral dot_S100000x256_S256x128_S100000x128_1_0_0_1_n_n none x w1)) (broadcastInDim S100000x128 ![0, 1] bcast_S1x128_S100000x128_0_1 (broadcastInDim S1x128 ![1] bcast_S128_S1x128_1 b1))) (broadcastInDim S100000x128 ![] bcast_S_S100000x128 (constant S_ .f32 0x00000000#32))) w2)) (broadcastInDim S100000x64 ![0, 1] bcast_S1x64_S100000x64_0_1 (broadcastInDim S1x64 ![1] bcast_S64_S1x64_1 b2))

/-- The reference's dense steps are the layers' functions. -/
theorem gcnHost_eq (x : FVec Ideal S100000x256 .f32) (e : Edges) (w1 : FVec Ideal S256x128 .f32) (b1 : FVec Ideal S128 .f32)
    (w2 : FVec Ideal S128x64 .f32) (b2 : FVec Ideal S64 .f32) : gcnHost x e w1 b1 w2 b2 = gcn x e w1 b1 w2 b2 := by
  unfold gcnHost gcn
  have d1 : Host.dotGeneral dot_S100000x256_S256x128_S100000x128_1_0_0_1_n_n none x w1 = rowsTimes (M := 100000) (K := 256) (N := 128) x w1 := by
    simp only [Host.dotGeneral]
    exact dotGeneral_eq _ ⟨rfl, rfl, rfl, rfl, rfl, rfl⟩ _ _ x w1
  rw [d1]
  generalize spread128 e (rowsTimes (M := 100000) (K := 256) (N := 128) x w1) = y1
  have hz : ∀ i, (broadcastInDim S100000x128 ![] bcast_S_S100000x128 (constant (F := Ideal) S_ .f32 0x00000000#32)) i = 0 :=
    fun i => Ideal.ofBits_zero_f32
  rw [maximumf_addf_rows_of_vector (M := 100000) (N := 128) y1 b1 bcast_S128_S1x128_1 bcast_S1x128_S100000x128_0_1 _ hz]
  have d2 : ∀ h : FVec Ideal S100000x128 .f32,
      Host.dotGeneral dot_S100000x128_S128x64_S100000x64_1_0_0_1_n_n none h w2 = rowsTimes (M := 100000) (K := 128) (N := 64) h w2 := by
    intro h
    simp only [Host.dotGeneral]
    exact dotGeneral_eq _ ⟨rfl, rfl, rfl, rfl, rfl, rfl⟩ _ _ h w2
  rw [d2]
  generalize spread64 e (rowsTimes (M := 100000) (K := 128) (N := 64) (reluRow (M := 100000) (N := 128) y1 b1) w2) = y2
  exact addf_rows_of_vector (M := 100000) (N := 64) y2 b2 bcast_S64_S1x64_1 bcast_S1x64_S100000x64_0_1

/-- The reference run's result term is the network applied to its arguments. -/
theorem reference_eq (m : (ℓ : Loc nD τ sig) → Buf (Elt Ideal) ℓ) (c : Dev nD) :
    Cert.ReferenceIdeal.ValueP.res_main_v90 (F := Ideal) m c
      = gcnHost (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v90
  rfl

end Cert.Gcn

end
-- ==== Proof.KernelRun.lean ====
import proofs.«126822_j85882166051006_1_alg».proof.Proof.Gen.KernelIdeal.Frame

/-!
# The run of the whole program, with its result named

The program is nine segments in a row: three stretches of host operations that turn the edge list into the edge weights,
the first product, the host's send-along-the-edges-and-add, the bias-and-positive-part launch, the second product, the
host's second send-and-add, and the last bias launch. The contents of every buffer at each boundary between segments
are a fold from the launch memory (`W0 … W9`). Every weakly fair execution terminates without a fault; at the end each
buffer holds the last boundary's contents `W9`. Read at the argument buffers that is the launch memory; read at the
result buffer it is what the last launch left in its output array.
-/

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the argument arrays end as launched. -/
theorem run_result : θ_run defs (onTc (τ := τ) (main (F := F))) ⟨m, fun _ => 0, ρ⟩ (fun r => ∀ c : Dev nD,
      r.2.mem ((c.tc : Thread nD τ).loc main_v59) = W9 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v59 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Whole

end
-- ==== Proof.FirstProduct.lean ====
import proofs.«126822_j85882166051006_1_alg».proof.Proof.Gen.KernelIdeal.Frame
import proofs.«126822_j85882166051006_1_alg».proof.Proof.LibRowLayers
import Idealize.ShloMosaic.Lib.Pipeline.Value
import Idealize.ShloMosaic.Lib.ValueIdx

/-!
# The first product, tile by tile, is the whole product

The first launch walks the 100000 feature rows in 20 tiles of 5000 rows. At tile `t` it multiplies rows
`5000 t … 5000 t + 4999` of the feature array by the whole weight matrix and writes the 5000 × 128 result to the same
rows of its output. An entry of a product depends on one row of the left factor only, so what tile `t` writes is rows
`5000 t …` of the one function `rowsTimes features weights`; row `r` lies in tile `r / 5000`, so the tiles cover
every row, and the output array ends holding `rowsTimes features weights` — whatever the arrays held when the launch
was entered (`V`).
-/

set_option maxRecDepth 16384

noncomputable section

namespace Cert.KernelIdeal.Whole

open Cert.KernelIdeal Cert.KernelIdeal.Gen Cert.Layers
open Idealize.ShloMosaic Idealize.ShloMosaic.TcCoe Idealize.ShloMosaic.ValueIdx Idealize.ShloMosaic.Pipeline
open Idealize.SL.Sem
open scoped BigOperators

variable (V : (c : Dev nD) → (b : Ref sig .tc) → Buf (Elt Ideal) ((c : Thread nD τ).loc b))

/-- A tile of rows times the weight matrix, at an entry: truncation to bf16 is the identity on the extended reals, and
    the matrix unit's product into zeros is the plain sum. -/
theorem tileProduct0_apply (x0 : Vec Ideal S5000x256 .f32) (x1 : Vec Ideal S256x128 .f32) (p : Fin 5000) (q : Fin 128) :
    k0_pay1 x0 x1 (ix2 p q) = ∑ k : Fin 256, x0 (ix2 p k) * x1 (ix2 k q) := by
  unfold k0_pay1
  exact LibPlainDot.matmul_zero_apply dot_S5000x256_S256x128_S5000x128_1_0_0_1_n_n ⟨rfl, rfl, rfl, rfl, rfl, rfl⟩ none _ _ p q

/-- The printed index maps over the 20 tiles: the feature tile and the output tile are both tile `t` of their rows and
    take every column; the weight matrix is always taken whole. -/
theorem tiles0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every tile number below 20 is some point's. -/
theorem tile_onto0 : ∀ q0 : Fin 20, ∃ t : Fin cfg0.N, t.val = q0.val :=
  (by decide +kernel : ∀ q0 : Fin 20, ∃ t : Fin grid0.N, t.val = q0.val)

/-- What tile `t` writes back is rows `5000 t …` of the whole product of the arrays the launch found. -/
theorem flushed0 (c : Dev nD) (t : Fin cfg0.N) :
    (dat0 V c).flushed 2 t
      = ((cfg0.win 2).blk t).view.read (Elt Ideal) (rowsTimes (M := 100000) (K := 256) (N := 128) (V c main_arg0) (V c main_arg2)) := by
  show (cfg0.win 2).cut (grid0.coords t) ((dat0 V c).after 2 t) = _
  rw [after0_2]
  unfold out0_2
  rw [View.canon_unit_zero zeros2]
  simp only [View.ld_unit_zero (S := S5000x256) zeros2, View.ld_unit_zero (S := S256x128) zeros2]
  obtain ⟨e0, e1, e2, e3, e4, e5⟩ := tiles0 t
  refine funext fun (j : S5000x128.Idx) => ?_
  obtain ⟨p, q, rfl⟩ : ∃ (p : Fin 5000) (q : Fin 128), j = ix2 p q := ⟨j 0, j 1, eq_ix2 j⟩
  show k0_pay1 (iblk0 V c 0 t) (iblk0 V c 1 t) (ix2 p q)
    = rowsTimes (M := 100000) (K := 256) (N := 128) (V c main_arg0) (V c main_arg2) (((cfg0.win 2).blk t).view.emb (ix2 p q))
  refine (tileProduct0_apply (iblk0 V c 0 t) (iblk0 V c 1 t) p q).trans ?_
  unfold rowsTimes
  refine Finset.sum_congr rfl fun k _ => ?_
  have hl : iblk0 V c 0 t (ix2 p k) = V c main_arg0 (ix2 ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  have hr : iblk0 V c 1 t (ix2 k q) = V c main_arg2 (ix2 k ((((cfg0.win 2).blk t).view.emb (ix2 p q)) 1)) := by
    show V c main_arg2 (((cfg0.win 1).blk t).view.emb (ix2 k q)) = _
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega
  rw [hl, hr]

/-- A row-and-column pair is in tile `t`'s block of the output iff each coordinate is in the block's range. -/
theorem mem_tile0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every entry of the output is in some tile that is written back: row `r` is in tile `r / 5000`. -/
theorem tiles_cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := tile_onto0 ⟨(i 0).val / 5000, by omega⟩
  have ht' : t.val = (i 0).val / 5000 := ht
  obtain ⟨e0, e1, e2, e3, e4, e5⟩ := tiles0 t
  refine ⟨t, flush0_2 t, ?_⟩
  rw [mem_tile0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the first launch its output array holds the whole product of the arrays it found. -/
theorem product0 (c : Dev nD) :
    (dat0 V c).arrAt 2 cfg0.N = rowsTimes (M := 100000) (K := 256) (N := 128) (V c main_arg0) (V c main_arg2) :=
  (dat0 V c).arrAt_eq_of_cover 2 _ (fun t _ => flushed0 V c t) (tiles_cover0)

end Cert.KernelIdeal.Whole

end
-- ==== Proof.BiasRelu.lean ====
import proofs.«126822_j85882166051006_1_alg».proof.Proof.Gen.KernelIdeal.Frame
import proofs.«126822_j85882166051006_1_alg».proof.Proof.LibRowLayers
import Idealize.ShloMosaic.Lib.Pipeline.Value
import Idealize.ShloMosaic.Lib.ValueIdx

/-!
# Bias and positive part, tile by tile, is bias and positive part of the whole array

The second launch walks the 100000 rows of the first layer's summed messages in 20 tiles of 5000 rows. At tile `t` it
adds the 128-entry bias vector to each of the tile's rows and keeps the positive part. An entry of the result depends
on the same entry of the input and on one bias entry, so what tile `t` writes is rows `5000 t …` of the one function
`reluRow messages bias`; the tiles cover every row, and the output array ends holding `reluRow messages bias`,
whatever the arrays held when the launch was entered (`V`).
-/

set_option maxRecDepth 16384

noncomputable section

namespace Cert.KernelIdeal.Whole

open Cert.KernelIdeal Cert.KernelIdeal.Gen Cert.Layers
open Idealize.ShloMosaic Idealize.ShloMosaic.TcCoe Idealize.ShloMosaic.ValueIdx Idealize.ShloMosaic.Pipeline
open Idealize.SL.Sem
open scoped BigOperators

variable (V : (c : Dev nD) → (b : Ref sig .tc) → Buf (Elt Ideal) ((c : Thread nD τ).loc b))

/-- A tile's rows plus the bias, positive part kept, at an entry: the bias vector stood up as a row and repeated down
    the tile gives entry `(p, q)` the bias entry `q`; the scalar zero of the comparison is the real zero. -/
theorem tileBiasRelu1_apply (x0 : Vec Ideal S5000x128 .f32) (x1 : Vec Ideal S128 .f32) (p : Fin 5000) (q : Fin 128) :
    k1_pay1 x0 x1 (ix2 p q) = max (x0 (ix2 p q) + x1 (ix1 q)) 0 := by
  unfold k1_pay1
  refine (maximumf_apply _ _ (ix2 p q)).trans ?_
  refine congrArg₂ max ?_ ?_
  · exact tile_addBias_apply (M := 5000) (N := 128) x0 x1 _ _ _ p q
  · exact Ideal.ofBits_zero_f32

/-- The printed index maps over the 20 tiles: the input tile and the output tile are both tile `t` of their rows and
    take every column; the bias vector is always taken whole. -/
theorem tiles1 : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- Every tile number below 20 is some point's. -/
theorem tile_onto1 : ∀ q0 : Fin 20, ∃ t : Fin cfg1.N, t.val = q0.val :=
  (by decide +kernel : ∀ q0 : Fin 20, ∃ t : Fin grid1.N, t.val = q0.val)

/-- What tile `t` writes back is rows `5000 t …` of `reluRow` of the arrays the launch found. -/
theorem flushed1 (c : Dev nD) (t : Fin cfg1.N) :
    (dat1 V c).flushed 2 t
      = ((cfg1.win 2).blk t).view.read (Elt Ideal) (reluRow (M := 100000) (N := 128) (V c main_v43) (V c main_arg3)) := by
  show (cfg1.win 2).cut (grid1.coords t) ((dat1 V c).after 2 t) = _
  rw [after1_2]
  unfold out1_2
  rw [View.canon_unit_zero zeros2]
  simp only [View.ld_unit_zero (S := S5000x128) zeros2, View.ld_unit_zero (S := S128) zeros1]
  obtain ⟨e0, e1, e2, e3, e4⟩ := tiles1 t
  refine funext fun (j : S5000x128.Idx) => ?_
  obtain ⟨p, q, rfl⟩ : ∃ (p : Fin 5000) (q : Fin 128), j = ix2 p q := ⟨j 0, j 1, eq_ix2 j⟩
  show k1_pay1 (iblk1 V c 0 t) (iblk1 V c 1 t) (ix2 p q)
    = reluRow (M := 100000) (N := 128) (V c main_v43) (V c main_arg3) (((cfg1.win 2).blk t).view.emb (ix2 p q))
  refine (tileBiasRelu1_apply (iblk1 V c 0 t) (iblk1 V c 1 t) p q).trans ?_
  unfold reluRow
  have hl : iblk1 V c 0 t (ix2 p q) = V c main_v43 (((cfg1.win 2).blk t).view.emb (ix2 p q)) := by
    show V c main_v43 (((cfg1.win 0).blk t).view.emb (ix2 p q)) = _
    refine congrArg (V c main_v43) (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have hr : iblk1 V c 1 t (ix1 q) = V c main_arg3 (ix1 ((((cfg1.win 2).blk t).view.emb (ix2 p q)) 1)) := by
    show V c main_arg3 (((cfg1.win 1).blk t).view.emb (ix1 q)) = _
    refine congrArg (V c main_arg3) (funext fun a => Fin.ext ?_)
    match a with
    | ⟨0, _⟩ => show win1_1.index t (0 : Fin 1) * 128 + 1 * q.val = win1_2.index t (1 : Fin 2) * 128 + 1 * q.val; omega
  rw [hl, hr]

/-- A row-and-column pair is in tile `t`'s block of the output iff each coordinate is in the block's range. -/
theorem mem_tile1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v44).slice (win1_2.rect t)).set ↔ _
  rw [View.set_slice_whole, Rect.mem_set_unit]
  exact Iff.rfl

/-- Every entry of the output is in some tile that is written back: row `r` is in tile `r / 5000`. -/
theorem tiles_cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := tile_onto1 ⟨(i 0).val / 5000, by omega⟩
  have ht' : t.val = (i 0).val / 5000 := ht
  obtain ⟨e0, e1, e2, e3, e4⟩ := tiles1 t
  refine ⟨t, flush1_2 t, ?_⟩
  rw [mem_tile1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the second launch its output array holds `reluRow` of the arrays it found. -/
theorem biasRelu1 (c : Dev nD) :
    (dat1 V c).arrAt 2 cfg1.N = reluRow (M := 100000) (N := 128) (V c main_v43) (V c main_arg3) :=
  (dat1 V c).arrAt_eq_of_cover 2 _ (fun t _ => flushed1 V c t) (tiles_cover1)

end Cert.KernelIdeal.Whole

end
-- ==== Proof.SecondProduct.lean ====
import proofs.«126822_j85882166051006_1_alg».proof.Proof.Gen.KernelIdeal.Frame
import proofs.«126822_j85882166051006_1_alg».proof.Proof.LibRowLayers
import Idealize.ShloMosaic.Lib.Pipeline.Value
import Idealize.ShloMosaic.Lib.ValueIdx

/-!
# The second product, tile by tile, is the whole product

The third launch walks the 100000 hidden rows in 20 tiles of 5000 rows. At tile `t` it multiplies rows
`5000 t … 5000 t + 4999` of the hidden array by the whole 128 × 64 weight matrix and writes the result to the same rows
of its output. As for the first product, what tile `t` writes is rows `5000 t …` of `rowsTimes hidden weights`, the
tiles cover every row, and the output array ends holding `rowsTimes hidden weights`, whatever the arrays held when the
launch was entered (`V`).
-/

set_option maxRecDepth 16384

noncomputable section

namespace Cert.KernelIdeal.Whole

open Cert.KernelIdeal Cert.KernelIdeal.Gen Cert.Layers
open Idealize.ShloMosaic Idealize.ShloMosaic.TcCoe Idealize.ShloMosaic.ValueIdx Idealize.ShloMosaic.Pipeline
open Idealize.SL.Sem
open scoped BigOperators

variable (V : (c : Dev nD) → (b : Ref sig .tc) → Buf (Elt Ideal) ((c : Thread nD τ).loc b))

/-- A tile of hidden rows times the weight matrix, at an entry: the cast to the same shape and the truncation to bf16
    are the identity on the extended reals, and the matrix unit's product into zeros is the plain sum. -/
theorem tileProduct2_apply (x0 : Vec Ideal S5000x128 .f32) (x1 : Vec Ideal S128x64 .f32) (p : Fin 5000) (q : Fin 64) :
    k2_pay1 x0 x1 (ix2 p q) = ∑ k : Fin 128, x0 (ix2 p k) * x1 (ix2 k q) := by
  unfold k2_pay1
  refine (LibPlainDot.matmul_zero_apply dot_S5000x128_S128x64_S5000x64_1_0_0_1_n_n ⟨rfl, rfl, rfl, rfl, rfl, rfl⟩ none _ _ p q).trans ?_
  refine Finset.sum_congr rfl fun k _ => ?_
  exact congrArg (· * x1 (ix2 k q)) (congrFun (shapeCast_self x0 _) (ix2 p k))

/-- The printed index maps over the 20 tiles: the hidden tile and the output tile are both tile `t` of their rows and
    take every column; the weight matrix is always taken whole. -/
theorem tiles2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every tile number below 20 is some point's. -/
theorem tile_onto2 : ∀ q0 : Fin 20, ∃ t : Fin cfg2.N, t.val = q0.val :=
  (by decide +kernel : ∀ q0 : Fin 20, ∃ t : Fin grid2.N, t.val = q0.val)

/-- What tile `t` writes back is rows `5000 t …` of the whole product of the arrays the launch found. -/
theorem flushed2 (c : Dev nD) (t : Fin cfg2.N) :
    (dat2 V c).flushed 2 t
      = ((cfg2.win 2).blk t).view.read (Elt Ideal) (rowsTimes (M := 100000) (K := 128) (N := 64) (V c main_v44) (V c main_arg4)) := by
  show (cfg2.win 2).cut (grid2.coords t) ((dat2 V c).after 2 t) = _
  rw [after2_2]
  unfold out2_2
  rw [View.canon_unit_zero zeros2]
  simp only [View.ld_unit_zero (S := S5000x128) zeros2, View.ld_unit_zero (S := S128x64) zeros2]
  obtain ⟨e0, e1, e2, e3, e4, e5⟩ := tiles2 t
  refine funext fun (j : S5000x64.Idx) => ?_
  obtain ⟨p, q, rfl⟩ : ∃ (p : Fin 5000) (q : Fin 64), j = ix2 p q := ⟨j 0, j 1, eq_ix2 j⟩
  show k2_pay1 (iblk2 V c 0 t) (iblk2 V c 1 t) (ix2 p q)
    = rowsTimes (M := 100000) (K := 128) (N := 64) (V c main_v44) (V c main_arg4) (((cfg2.win 2).blk t).view.emb (ix2 p q))
  refine (tileProduct2_apply (iblk2 V c 0 t) (iblk2 V c 1 t) p q).trans ?_
  unfold rowsTimes
  refine Finset.sum_congr rfl fun k _ => ?_
  have hl : iblk2 V c 0 t (ix2 p k) = V c main_v44 (ix2 ((((cfg2.win 2).blk t).view.emb (ix2 p q)) 0) k) := by
    show V c main_v44 (((cfg2.win 0).blk t).view.emb (ix2 p k)) = _
    refine congrArg (V c main_v44) (funext fun a => Fin.ext ?_)
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have hr : iblk2 V c 1 t (ix2 k q) = V c main_arg4 (ix2 k ((((cfg2.win 2).blk t).view.emb (ix2 p q)) 1)) := by
    show V c main_arg4 (((cfg2.win 1).blk t).view.emb (ix2 k q)) = _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 64 + 1 * q.val = win2_2.index t (1 : Fin 2) * 64 + 1 * q.val; omega
  rw [hl, hr]

/-- A row-and-column pair is in tile `t`'s block of the output iff each coordinate is in the block's range. -/
theorem mem_tile2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v45).slice (win2_2.rect t)).set ↔ _
  rw [View.set_slice_whole, Rect.mem_set_unit]
  exact Iff.rfl

/-- Every entry of the output is in some tile that is written back: row `r` is in tile `r / 5000`. -/
theorem tiles_cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := tile_onto2 ⟨(i 0).val / 5000, by omega⟩
  have ht' : t.val = (i 0).val / 5000 := ht
  obtain ⟨e0, e1, e2, e3, e4, e5⟩ := tiles2 t
  refine ⟨t, flush2_2 t, ?_⟩
  rw [mem_tile2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the third launch its output array holds the whole product of the arrays it found. -/
theorem product2 (c : Dev nD) :
    (dat2 V c).arrAt 2 cfg2.N = rowsTimes (M := 100000) (K := 128) (N := 64) (V c main_v44) (V c main_arg4) :=
  (dat2 V c).arrAt_eq_of_cover 2 _ (fun t _ => flushed2 V c t) (tiles_cover2)

end Cert.KernelIdeal.Whole

end
-- ==== Proof.BiasOut.lean ====
import proofs.«126822_j85882166051006_1_alg».proof.Proof.Gen.KernelIdeal.Frame
import proofs.«126822_j85882166051006_1_alg».proof.Proof.LibRowLayers
import Idealize.ShloMosaic.Lib.Pipeline.Value
import Idealize.ShloMosaic.Lib.ValueIdx

/-!
# The last bias, tile by tile, is the bias added to the whole array

The fourth launch walks the 100000 rows of the second layer's summed messages in 20 tiles of 5000 rows and adds the
64-entry bias vector to each row. What tile `t` writes is rows `5000 t …` of `addRow messages bias`, the tiles cover
every row, and the output array — the program's result — ends holding `addRow messages bias`, whatever the arrays held
when the launch was entered (`V`).
-/

set_option maxRecDepth 16384

noncomputable section

namespace Cert.KernelIdeal.Whole

open Cert.KernelIdeal Cert.KernelIdeal.Gen Cert.Layers
open Idealize.ShloMosaic Idealize.ShloMosaic.TcCoe Idealize.ShloMosaic.ValueIdx Idealize.ShloMosaic.Pipeline
open Idealize.SL.Sem
open scoped BigOperators

variable (V : (c : Dev nD) → (b : Ref sig .tc) → Buf (Elt Ideal) ((c : Thread nD τ).loc b))

/-- A tile's rows plus the bias, at an entry: the bias vector stood up as a row and repeated down the tile gives entry
    `(p, q)` the bias entry `q`. -/
theorem tileBias3_apply (x0 : Vec Ideal S5000x64 .f32) (x1 : Vec Ideal S64 .f32) (p : Fin 5000) (q : Fin 64) :
    k3_pay1 x0 x1 (ix2 p q) = x0 (ix2 p q) + x1 (ix1 q) := by
  unfold k3_pay1
  exact tile_addBias_apply (M := 5000) (N := 64) x0 x1 _ _ _ p q

/-- The printed index maps over the 20 tiles: the input tile and the output tile are both tile `t` of their rows and
    take every column; the bias vector is always taken whole. -/
theorem tiles3 : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- Every tile number below 20 is some point's. -/
theorem tile_onto3 : ∀ q0 : Fin 20, ∃ t : Fin cfg3.N, t.val = q0.val :=
  (by decide +kernel : ∀ q0 : Fin 20, ∃ t : Fin grid3.N, t.val = q0.val)

/-- What tile `t` writes back is rows `5000 t …` of `addRow` of the arrays the launch found. -/
theorem flushed3 (c : Dev nD) (t : Fin cfg3.N) :
    (dat3 V c).flushed 2 t
      = ((cfg3.win 2).blk t).view.read (Elt Ideal) (addRow (M := 100000) (N := 64) (V c main_v58) (V c main_arg5)) := by
  show (cfg3.win 2).cut (grid3.coords t) ((dat3 V c).after 2 t) = _
  rw [after3_2]
  unfold out3_2
  rw [View.canon_unit_zero zeros2]
  simp only [View.ld_unit_zero (S := S5000x64) zeros2, View.ld_unit_zero (S := S64) zeros1]
  obtain ⟨e0, e1, e2, e3, e4⟩ := tiles3 t
  refine funext fun (j : S5000x64.Idx) => ?_
  obtain ⟨p, q, rfl⟩ : ∃ (p : Fin 5000) (q : Fin 64), j = ix2 p q := ⟨j 0, j 1, eq_ix2 j⟩
  show k3_pay1 (iblk3 V c 0 t) (iblk3 V c 1 t) (ix2 p q)
    = addRow (M := 100000) (N := 64) (V c main_v58) (V c main_arg5) (((cfg3.win 2).blk t).view.emb (ix2 p q))
  refine (tileBias3_apply (iblk3 V c 0 t) (iblk3 V c 1 t) p q).trans ?_
  unfold addRow
  have hl : iblk3 V c 0 t (ix2 p q) = V c main_v58 (((cfg3.win 2).blk t).view.emb (ix2 p q)) := by
    show V c main_v58 (((cfg3.win 0).blk t).view.emb (ix2 p q)) = _
    refine congrArg (V c main_v58) (funext fun a => Fin.ext ?_)
    match a with
    | ⟨0, _⟩ => show win3_0.index t (0 : Fin 2) * 5000 + 1 * p.val = win3_2.index t (0 : Fin 2) * 5000 + 1 * p.val; omega
    | ⟨1, _⟩ => show win3_0.index t (1 : Fin 2) * 64 + 1 * q.val = win3_2.index t (1 : Fin 2) * 64 + 1 * q.val; omega
  have hr : iblk3 V c 1 t (ix1 q) = V c main_arg5 (ix1 ((((cfg3.win 2).blk t).view.emb (ix2 p q)) 1)) := by
    show V c main_arg5 (((cfg3.win 1).blk t).view.emb (ix1 q)) = _
    refine congrArg (V c main_arg5) (funext fun a => Fin.ext ?_)
    match a with
    | ⟨0, _⟩ => show win3_1.index t (0 : Fin 1) * 64 + 1 * q.val = win3_2.index t (1 : Fin 2) * 64 + 1 * q.val; omega
  rw [hl, hr]

/-- A row-and-column pair is in tile `t`'s block of the output iff each coordinate is in the block's range. -/
theorem mem_tile3 (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v59).slice (win3_2.rect t)).set ↔ _
  rw [View.set_slice_whole, Rect.mem_set_unit]
  exact Iff.rfl

/-- Every entry of the output is in some tile that is written back: row `r` is in tile `r / 5000`. -/
theorem tiles_cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := tile_onto3 ⟨(i 0).val / 5000, by omega⟩
  have ht' : t.val = (i 0).val / 5000 := ht
  obtain ⟨e0, e1, e2, e3, e4⟩ := tiles3 t
  refine ⟨t, flush3_2 t, ?_⟩
  rw [mem_tile3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- After the fourth launch its output array holds `addRow` of the arrays it found. -/
theorem biasOut3 (c : Dev nD) :
    (dat3 V c).arrAt 2 cfg3.N = addRow (M := 100000) (N := 64) (V c main_v58) (V c main_arg5) :=
  (dat3 V c).arrAt_eq_of_cover 2 _ (fun t _ => flushed3 V c t) (tiles_cover3)

end Cert.KernelIdeal.Whole

end
-- ==== Proof.KernelFold.lean ====
import proofs.«126822_j85882166051006_1_alg».proof.Proof.FirstProduct
import proofs.«126822_j85882166051006_1_alg».proof.Proof.BiasRelu
import proofs.«126822_j85882166051006_1_alg».proof.Proof.SecondProduct
import proofs.«126822_j85882166051006_1_alg».proof.Proof.BiasOut
import proofs.«126822_j85882166051006_1_alg».proof.Proof.Convolution
import Idealize.ShloMosaic.Lib.StableHlo.Run

/-!
# The program's result is the network applied to its arguments

The contents of the buffers at the boundaries between the program's nine segments, followed from the launch memory to
the result:

* the three host stretches before the first launch compute, from the edge list alone, the edges' sources and targets
  with the self loops and the edges' weights, and write no argument;
* the first launch leaves `rowsTimes x W1` (its region's theorem at the contents it is entered from);
* the host stretch after it is the first layer's edge step `spread128` of that product;
* the second launch leaves `reluRow` of that sum and the first bias, the third `rowsTimes` of that with `W2`;
* the next host stretch is the second layer's edge step `spread64`; the last launch adds the second bias.

A stretch or launch that does not write a buffer leaves it as it was, so the arguments and the edge data are the same
at every boundary where they are read.
-/

set_option maxRecDepth 16384

noncomputable section

namespace Cert.KernelIdeal.Whole

open Cert.KernelIdeal Cert.KernelIdeal.Gen Cert.Layers
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-! ## Before the first launch: the arguments as launched, the edge data computed -/

/-- The contents before the first launch are the launch memory folded through the three host stretches: follow one
    buffer through them, each operation either writing it (its function's value) or leaving it. -/
local macro "before_first_launch" : tactic =>
  `(tactic| (show StableHlo.after hostOps0_2 (StableHlo.after hostOps0_1 (StableHlo.after hostOps0 (W0 _ _ _))) _ = _
             dsimp only [hostOps0_2, hostOps0_1, hostOps0]
             after_results_simp))

theorem entry0_arg0 : W3 m ρ c (Proc.devRef .tc main_arg0) = (m ((c : Thread nD τ).loc main_arg0)) := by
  before_first_launch <;> rfl

theorem entry0_arg2 : W3 m ρ c (Proc.devRef .tc main_arg2) = (m ((c : Thread nD τ).loc main_arg2)) := by
  before_first_launch <;> rfl

theorem entry0_arg3 : W3 m ρ c (Proc.devRef .tc main_arg3) = (m ((c : Thread nD τ).loc main_arg3)) := by
  before_first_launch <;> rfl

theorem entry0_arg4 : W3 m ρ c (Proc.devRef .tc main_arg4) = (m ((c : Thread nD τ).loc main_arg4)) := by
  before_first_launch <;> rfl

theorem entry0_arg5 : W3 m ρ c (Proc.devRef .tc main_arg5) = (m ((c : Thread nD τ).loc main_arg5)) := by
  before_first_launch <;> rfl

/-- The edges' sources with the self loops. -/
theorem entry0_srcs : W3 m ρ c (Proc.devRef .tc main_v5) = Cert.Gcn.srcs (m ((c : Thread nD τ).loc main_arg1)) := by
  before_first_launch <;> rfl

/-- The edges' targets with the self loops. -/
theorem entry0_dsts : W3 m ρ c (Proc.devRef .tc main_v6) = Cert.Gcn.dsts (m ((c : Thread nD τ).loc main_arg1)) := by
  before_first_launch <;> rfl

/-- The same after the first two stretches only (the second, the outlined select, writes neither). -/
local macro "before_last_stretch" : tactic =>
  `(tactic| (show StableHlo.after hostOps0_1 (StableHlo.after hostOps0 (W0 _ _ _)) _ = _
             dsimp only [hostOps0_1, hostOps0]
             after_results_simp))

theorem srcs_W2 : W2 m ρ c (Proc.devRef .tc main_v5) = Cert.Gcn.srcs (m ((c : Thread nD τ).loc main_arg1)) := by
  before_last_stretch <;> rfl

theorem dsts_W2 : W2 m ρ c (Proc.devRef .tc main_v6) = Cert.Gcn.dsts (m ((c : Thread nD τ).loc main_arg1)) := by
  before_last_stretch <;> rfl

/-- Follow one buffer through the first host stretch. -/
local macro "first_stretch" : tactic =>
  `(tactic| (show StableHlo.after hostOps0 (W0 _ _ _) _ = _
             dsimp only [hostOps0]
             after_results_simp))

set_option maxHeartbeats 8000000 in
/-- How many edges end at each node, after the first stretch. -/
theorem degree_W1 : W1 m ρ c (Proc.devRef .tc main_v10) = Cert.Gcn.degree (m ((c : Thread nD τ).loc main_arg1)) := by
  first_stretch <;> rfl

set_option maxHeartbeats 8000000 in
/-- The first stretch compares the degree `X` with zero and takes its inverse square root; the second stretch — an
    outlined select — chooses between that and zero. Only the select is followed here, over what the first stretch
    left. -/
theorem select_W2 (X : FVec Ideal S100000 .f32) (h10 : (W1 m ρ c (Proc.devRef .tc main_v10) : FVec Ideal S100000 .f32) = X) :
    W2 m ρ c (Proc.devRef .tc main_v14)
      = select (cmpf (F := Ideal) .ogt X (broadcastInDim S100000 ![] bcast_S_S100000 (constant S_ .f32 0x00000000#32)))
          (Host.rsqrt X) (broadcastInDim S100000 ![] bcast_S_S100000 (id (constant S_ .f32 0x00000000#32))) := by
  show StableHlo.after hostOps0_1 (W1 m ρ c) (Proc.devRef .tc main_v14) = _
  have h12 : (W1 m ρ c (Proc.devRef .tc main_v12) : (⟨S100000, .i1⟩ : BufTy).Contents (Elt Ideal))
      = cmpf (F := Ideal) .ogt (W1 m ρ c (Proc.devRef .tc main_v10) : FVec Ideal S100000 .f32)
          (broadcastInDim S100000 ![] bcast_S_S100000 (constant S_ .f32 0x00000000#32)) := by
    first_stretch <;> rfl
  have h13 : (W1 m ρ c (Proc.devRef .tc main_v13) : FVec Ideal S100000 .f32)
      = Host.rsqrt (F := Ideal) (s := S100000) (φ := .f32) (W1 m ρ c (Proc.devRef .tc main_v10)) := by
    first_stretch <;> rfl
  have hz : (W1 m ρ c (Proc.devRef .tc main_cst_2) : FVec Ideal S_ .f32) = constant (F := Ideal) S_ .f32 0x00000000#32 := by
    first_stretch <;> rfl
  rw [h10] at h12 h13
  generalize W1 m ρ c = V1 at h12 h13 hz ⊢
  dsimp only [hostOps0_1]
  after_results_simp
  rw [h12, h13, hz]
  rfl

/-- That select, spelt over either program's shape facts, is one term. -/
theorem select_spellings (X : FVec Ideal S100000 .f32) :
    select (cmpf (F := Ideal) .ogt X (broadcastInDim S100000 ![] bcast_S_S100000 (constant S_ .f32 0x00000000#32)))
        (Host.rsqrt X) (broadcastInDim S100000 ![] bcast_S_S100000 (id (constant S_ .f32 0x00000000#32)))
      = select (cmpf (F := Ideal) .ogt X (broadcastInDim Cert.ReferenceIdeal.S100000 ![] Cert.ReferenceIdeal.Facts₀.bcast_S_S100000 (constant Cert.ReferenceIdeal.S_ .f32 0x00000000#32)))
          (Host.rsqrt X) (broadcastInDim Cert.ReferenceIdeal.S100000 ![] Cert.ReferenceIdeal.Facts₀.bcast_S_S100000 (id (constant Cert.ReferenceIdeal.S_ .f32 0x00000000#32))) :=
  rfl

/-- `1/√degree` where the degree is positive, zero elsewhere. -/
theorem invSqrtDeg_W2 : W2 m ρ c (Proc.devRef .tc main_v14) = Cert.Gcn.invSqrtDeg (m ((c : Thread nD τ).loc main_arg1)) :=
  (select_W2 m ρ c _ (degree_W1 m ρ c)).trans (select_spellings _)

set_option maxHeartbeats 8000000 in
/-- The edges' weights: the third stretch reads `invSqrtDeg` at both ends of every edge and multiplies. Only that
    stretch is followed here; what it reads from below is named by the three facts above. -/
theorem entry0_weights : W3 m ρ c (Proc.devRef .tc main_v29) = Cert.Gcn.weights (m ((c : Thread nD τ).loc main_arg1)) := by
  show StableHlo.after hostOps0_2 (W2 m ρ c) (Proc.devRef .tc main_v29) = _
  have h14 := invSqrtDeg_W2 m ρ c
  have h5 := srcs_W2 m ρ c
  have h6 := dsts_W2 m ρ c
  generalize W2 m ρ c = V2 at h14 h5 h6 ⊢
  dsimp only [hostOps0_2]
  after_results_simp
  rw [h14, h5, h6]
  rfl

/-! ## The first launch and the first edge step -/

/-- The first launch's output: the whole first product. -/
theorem product_W4 : W4 m ρ c (Proc.devRef .tc main_v30)
    = rowsTimes (M := 100000) (K := 256) (N := 128) (m ((c : Thread nD τ).loc main_arg0)) (m ((c : Thread nD τ).loc main_arg2)) := by
  refine (W4_arr m ρ c 2).trans ?_
  rw [product0 (V3 m ρ) c]
  show rowsTimes (M := 100000) (K := 256) (N := 128) (W3 m ρ c (Proc.devRef .tc main_arg0)) (W3 m ρ c (Proc.devRef .tc main_arg2)) = _
  rw [entry0_arg0, entry0_arg2]

theorem srcs_W4 : W4 m ρ c (Proc.devRef .tc main_v5) = Cert.Gcn.srcs (m ((c : Thread nD τ).loc main_arg1)) :=
  (W4_of_ne m ρ c main_v5 (by decide)).trans (entry0_srcs m ρ c)
theorem dsts_W4 : W4 m ρ c (Proc.devRef .tc main_v6) = Cert.Gcn.dsts (m ((c : Thread nD τ).loc main_arg1)) :=
  (W4_of_ne m ρ c main_v6 (by decide)).trans (entry0_dsts m ρ c)
theorem weights_W4 : W4 m ρ c (Proc.devRef .tc main_v29) = Cert.Gcn.weights (m ((c : Thread nD τ).loc main_arg1)) :=
  (W4_of_ne m ρ c main_v29 (by decide)).trans (entry0_weights m ρ c)

set_option maxHeartbeats 8000000 in
/-- The host stretch after the first launch: the first layer's edge step of the product. -/
theorem sum_W5 : W5 m ρ c (Proc.devRef .tc main_v43)
    = Cert.Gcn.spread128 (m ((c : Thread nD τ).loc main_arg1)) (rowsTimes (M := 100000) (K := 256) (N := 128) (m ((c : Thread nD τ).loc main_arg0)) (m ((c : Thread nD τ).loc main_arg2))) := by
  show StableHlo.after hostOps1 (W4 m ρ c) (Proc.devRef .tc main_v43) = _
  dsimp only [hostOps1]
  after_results_simp
  rw [product_W4, srcs_W4, dsts_W4, weights_W4]
  rfl

set_option maxHeartbeats 8000000 in
/-- That stretch writes none of these. -/
theorem keep5 (b : Ref sig .tc) (hb : b = main_arg3 ∨ b = main_arg4 ∨ b = main_arg5 ∨ b = main_v5 ∨ b = main_v6 ∨ b = main_v29) :
    W5 m ρ c (Proc.devRef .tc b) = W4 m ρ c (Proc.devRef .tc b) := by
  show StableHlo.after hostOps1 (W4 m ρ c) (Proc.devRef .tc b) = _
  dsimp only [hostOps1]
  rcases hb with rfl | rfl | rfl | rfl | rfl | rfl <;> (after_results_simp <;> rfl)

theorem arg3_W5 : W5 m ρ c (Proc.devRef .tc main_arg3) = (m ((c : Thread nD τ).loc main_arg3)) :=
  (keep5 m ρ c main_arg3 (.inl rfl)).trans ((W4_of_ne m ρ c main_arg3 (by decide)).trans (entry0_arg3 m ρ c))

/-! ## The second and third launches -/

/-- The second launch's output: bias and positive part of the first layer's sums. -/
theorem hidden_W6 : W6 m ρ c (Proc.devRef .tc main_v44)
    = reluRow (M := 100000) (N := 128)
        (Cert.Gcn.spread128 (m ((c : Thread nD τ).loc main_arg1)) (rowsTimes (M := 100000) (K := 256) (N := 128) (m ((c : Thread nD τ).loc main_arg0)) (m ((c : Thread nD τ).loc main_arg2)))) (m ((c : Thread nD τ).loc main_arg3)) := by
  refine (W6_arr m ρ c 2).trans ?_
  rw [biasRelu1 (V5 m ρ) c]
  show reluRow (M := 100000) (N := 128) (W5 m ρ c (Proc.devRef .tc main_v43)) (W5 m ρ c (Proc.devRef .tc main_arg3)) = _
  rw [sum_W5, arg3_W5]

theorem arg4_W6 : W6 m ρ c (Proc.devRef .tc main_arg4) = (m ((c : Thread nD τ).loc main_arg4)) :=
  (W6_of_ne m ρ c main_arg4 (by decide)).trans ((keep5 m ρ c main_arg4 (.inr (.inl rfl))).trans
    ((W4_of_ne m ρ c main_arg4 (by decide)).trans (entry0_arg4 m ρ c)))

/-- The third launch's output: the whole second product. -/
theorem product_W7 : W7 m ρ c (Proc.devRef .tc main_v45)
    = rowsTimes (M := 100000) (K := 128) (N := 64)
        (reluRow (M := 100000) (N := 128)
          (Cert.Gcn.spread128 (m ((c : Thread nD τ).loc main_arg1)) (rowsTimes (M := 100000) (K := 256) (N := 128) (m ((c : Thread nD τ).loc main_arg0)) (m ((c : Thread nD τ).loc main_arg2)))) (m ((c : Thread nD τ).loc main_arg3))) (m ((c : Thread nD τ).loc main_arg4)) := by
  refine (W7_arr m ρ c 2).trans ?_
  rw [product2 (V6 m ρ) c]
  show rowsTimes (M := 100000) (K := 128) (N := 64) (W6 m ρ c (Proc.devRef .tc main_v44)) (W6 m ρ c (Proc.devRef .tc main_arg4)) = _
  rw [hidden_W6, arg4_W6]

/-- The two launches write none of the edge data. -/
theorem keep7 (b : Ref sig .tc) (h2 : ∀ w, Pipeline.arrRef spec2 w ≠ b) (h1 : ∀ w, Pipeline.arrRef spec1 w ≠ b)
    (hb : b = main_arg3 ∨ b = main_arg4 ∨ b = main_arg5 ∨ b = main_v5 ∨ b = main_v6 ∨ b = main_v29)
    (h0 : ∀ w, Pipeline.arrRef spec0 w ≠ b) :
    W7 m ρ c (Proc.devRef .tc b) = W3 m ρ c (Proc.devRef .tc b) :=
  (W7_of_ne m ρ c b h2).trans ((W6_of_ne m ρ c b h1).trans ((keep5 m ρ c b hb).trans (W4_of_ne m ρ c b h0)))

theorem srcs_W7 : W7 m ρ c (Proc.devRef .tc main_v5) = Cert.Gcn.srcs (m ((c : Thread nD τ).loc main_arg1)) :=
  (keep7 m ρ c main_v5 (by decide) (by decide) (.inr (.inr (.inr (.inl rfl)))) (by decide)).trans (entry0_srcs m ρ c)
theorem dsts_W7 : W7 m ρ c (Proc.devRef .tc main_v6) = Cert.Gcn.dsts (m ((c : Thread nD τ).loc main_arg1)) :=
  (keep7 m ρ c main_v6 (by decide) (by decide) (.inr (.inr (.inr (.inr (.inl rfl))))) (by decide)).trans (entry0_dsts m ρ c)
theorem weights_W7 : W7 m ρ c (Proc.devRef .tc main_v29) = Cert.Gcn.weights (m ((c : Thread nD τ).loc main_arg1)) :=
  (keep7 m ρ c main_v29 (by decide) (by decide) (.inr (.inr (.inr (.inr (.inr rfl))))) (by decide)).trans (entry0_weights m ρ c)
theorem arg5_W7 : W7 m ρ c (Proc.devRef .tc main_arg5) = (m ((c : Thread nD τ).loc main_arg5)) :=
  (keep7 m ρ c main_arg5 (by decide) (by decide) (.inr (.inr (.inl rfl))) (by decide)).trans (entry0_arg5 m ρ c)

/-! ## The second edge step and the last launch -/

set_option maxHeartbeats 8000000 in
/-- The host stretch after the third launch: the second layer's edge step of the second product. -/
theorem sum_W8 : W8 m ρ c (Proc.devRef .tc main_v58)
    = Cert.Gcn.spread64 (m ((c : Thread nD τ).loc main_arg1))
        (rowsTimes (M := 100000) (K := 128) (N := 64)
          (reluRow (M := 100000) (N := 128)
            (Cert.Gcn.spread128 (m ((c : Thread nD τ).loc main_arg1)) (rowsTimes (M := 100000) (K := 256) (N := 128) (m ((c : Thread nD τ).loc main_arg0)) (m ((c : Thread nD τ).loc main_arg2)))) (m ((c : Thread nD τ).loc main_arg3))) (m ((c : Thread nD τ).loc main_arg4))) := by
  show StableHlo.after hostOps3 (W7 m ρ c) (Proc.devRef .tc main_v58) = _
  dsimp only [hostOps3]
  after_results_simp
  rw [product_W7, srcs_W7, dsts_W7, weights_W7]
  rfl

theorem arg5_W8 : W8 m ρ c (Proc.devRef .tc main_arg5) = (m ((c : Thread nD τ).loc main_arg5)) := by
  refine Eq.trans ?_ (arg5_W7 m ρ c)
  show StableHlo.after hostOps3 (W7 m ρ c) (Proc.devRef .tc main_arg5) = _
  dsimp only [hostOps3]
  after_results_simp <;> rfl

/-- THE RESULT: the last launch's output is the network applied to the six arguments. -/
theorem result_W9 : W9 m ρ c (Proc.devRef .tc main_v59)
    = Cert.Gcn.gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ?_
  rw [biasOut3 (V8 m ρ) c]
  show addRow (M := 100000) (N := 64) (W8 m ρ c (Proc.devRef .tc main_v58)) (W8 m ρ c (Proc.devRef .tc main_arg5)) = _
  rw [sum_W8, arg5_W8]
  rfl

end Cert.KernelIdeal.Whole

end
-- ==== Proof.lean ====
/- The two programs compute one function.

   Both are a two-layer graph convolution over 100000 nodes and 1600000 edges: multiply the node features by a
   weight matrix, send every node's row along the edges scaled by 1/√(degree · degree) and add what arrives, add a
   bias, keep the positive part; then the same again without the positive part. One program does the two products
   and the two bias steps in launches that walk the rows 5000 at a time, rounding the products' operands to bf16
   first; the other does everything with whole-array host operations and recomputes the edge weights for its
   second layer. Over the extended reals rounding is the identity, a product entry depends on one row only so the
   tiling is invisible (Proof/FirstProduct, BiasRelu, SecondProduct, BiasOut over Proof/LibRowLayers), the edge steps are the
   same operations on both sides and are never opened (Proof/Convolution), and following the buffers from segment to
   segment (Proof/KernelFold over Proof/KernelRun) gives the same term `Cert.Gcn.gcn` of the six arguments that the
   reference's run ends at. No sum is regrouped and no factor moves across a sum, so the inputs' finiteness is never
   used. The idealization rewrote nothing, so `preserves` is `True`. -/
import proofs.«126822_j85882166051006_1_alg».proof.Defs
import proofs.«126822_j85882166051006_1_alg».proof.Proof.Gen.Kernel
import proofs.«126822_j85882166051006_1_alg».proof.Proof.Gen.Kernel.Skeleton
import proofs.«126822_j85882166051006_1_alg».proof.Proof.Gen.Kernel.Launch
import proofs.«126822_j85882166051006_1_alg».proof.Proof.Gen.Kernel.Points
import proofs.«126822_j85882166051006_1_alg».proof.Proof.Gen.Kernel.Frame
import proofs.«126822_j85882166051006_1_alg».proof.Proof.Gen.KernelIdeal
import proofs.«126822_j85882166051006_1_alg».proof.Proof.Gen.KernelIdeal.Skeleton
import proofs.«126822_j85882166051006_1_alg».proof.Proof.Gen.KernelIdeal.Launch
import proofs.«126822_j85882166051006_1_alg».proof.Proof.Gen.KernelIdeal.Points
import proofs.«126822_j85882166051006_1_alg».proof.Proof.Gen.KernelIdeal.Frame
import proofs.«126822_j85882166051006_1_alg».proof.Proof.Gen.ReferenceIdeal
import proofs.«126822_j85882166051006_1_alg».proof.Proof.Gen.Pre_finite_inputs
import proofs.«126822_j85882166051006_1_alg».proof.Proof.ReferenceRun
import proofs.«126822_j85882166051006_1_alg».proof.Proof.Convolution
import proofs.«126822_j85882166051006_1_alg».proof.Proof.KernelRun
import proofs.«126822_j85882166051006_1_alg».proof.Proof.KernelFold
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result at the network applied to the six arguments, which agree. -/
theorem algebraic : Cert.algebraic_KernelIdeal_ReferenceIdeal := by
  intro m ρ m' ρ' _ hagree
  refine ⟨fun c => Cert.Gcn.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Whole.result_W9 m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.Gcn.reference_eq, Cert.Gcn.gcnHost_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
